-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x8192x4096 .f32) (main_arg1 : FVec F S8192x4096 .f32) (main_arg2 : FVec F S4096 .f32) (main_arg3 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x8192x4096 : Shape := ⟨3, ![4, 8192, 4096]⟩
abbrev S8192x4096 : Shape := ⟨2, ![8192, 4096]⟩
abbrev S4096 : Shape := ⟨1, ![4096]⟩
abbrev S1x4096 : Shape := ⟨2, ![1, 4096]⟩
abbrev S4x128x4096 : Shape := ⟨3, ![4, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .local _ .vmem, ⟨0, _⟩ => ⟨S4x128x4096, .f32⟩
  | .local _ .vmem, ⟨1, _⟩ => ⟨S4x128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S1x4096 : S4096.ShapeCasts S1x4096
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S4x128x4096_S1x128x4096_1_0_0 : ∀ a, (![1, 0, 0] : Fin 3 → Nat) a + S1x128x4096.size a ≤ S4x128x4096.size a
  inb_S4x128x4096_S1x128x4096_2_0_0 : ∀ a, (![2, 0, 0] : Fin 3 → Nat) a + S1x128x4096.size a ≤ S4x128x4096.size a
  inb_S4x128x4096_S1x128x4096_3_0_0 : ∀ a, (![3, 0, 0] : Fin 3 → Nat) a + S1x128x4096.size a ≤ S4x128x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x8192x4096.size a
  hwx0_0 : ∀ i : grid0.Coords, EltTy.bits .f32 = 32 ∨ (Rect.block (s := S4x8192x4096) S4x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_5 : Pipeline.Aliased win0 1 5

variable [Facts]
-- ==== ReferenceIdeal.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩
abbrev S1x4096 : Shape := ⟨2, ![1, 4096]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S4x8192x4096_S8192x4096_d0 : S4x8192x4096.ReducesTo [0] S8192x4096
  h_S_ : 0 < S_.numel
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.Spec.lean ====
/-
  The mathematics both programs compute, stated once over the extended reals.

  Four partial activations x[0..3] of shape [8192, 4096] are added entry by entry, then a bias (one value per column)
  and a residual (one value per entry) are added: this is the intermediate `inter`. Each row of the intermediate is
  then divided by its root mean square: the row's mean of squares is the sum of the 4096 squared entries divided by
  4096, a small constant is added, and the entry is multiplied by the reciprocal square root of that and by a weight
  (one value per column): this is `norm`. The divisor 4096 and the added constant are kept as the float words both
  programs carry; the same word denotes the same extended real on both sides, so neither is ever evaluated.
-/
import Idealize.ShloMosaic.PureOps.Ideal
import Idealize.ShloMosaic.Lib.ValueIdx

noncomputable section

open scoped BigOperators

namespace Cert.RmsNorm

open Idealize.ShloMosaic Idealize.ShloMosaic.ValueIdx

/-- The partial activations: 4 arrays of 8192 rows and 4096 columns. -/
abbrev Sx : Shape := ⟨3, ![4, 8192, 4096]⟩
/-- One array of 8192 rows and 4096 columns. -/
abbrev Sm : Shape := ⟨2, ![8192, 4096]⟩
/-- One value per column. -/
abbrev Sv : Shape := ⟨1, ![4096]⟩

variable (x : Sx.Idx → EReal) (res : Sm.Idx → EReal) (bias w : Sv.Idx → EReal)

/-- The intermediate at row `r`, column `c`: the four partial activations added in order, then the column's bias,
    then the entry's residual. -/
def inter (r : Fin 8192) (c : Fin 4096) : EReal :=
  x (ix3 (0 : Fin 4) r c) + x (ix3 (1 : Fin 4) r c) + x (ix3 (2 : Fin 4) r c) + x (ix3 (3 : Fin 4) r c) + bias (ix1 c) + res (ix2 r c)

/-- The sum of the squares of row `r` of the intermediate. -/
def sumSq (r : Fin 8192) : EReal := ∑ k : Fin 4096, inter x res bias r k * inter x res bias r k

/-- The factor row `r` is scaled by: the reciprocal square root of the row's mean square plus the small constant. -/
def scale (r : Fin 8192) : EReal :=
  Ideal.rsqrt (Ideal.div (sumSq x res bias r) (Ideal.ofBits .f32 0x45800000#32) + Ideal.ofBits .f32 0x358637BD#32)

/-- The normalized entry at row `r`, column `c`: the intermediate times the row's factor times the column's weight. -/
def norm (r : Fin 8192) (c : Fin 4096) : EReal := inter x res bias r c * scale x res bias r * w (ix1 c)

/-- The intermediate as an array. -/
def interArr : Sm.Idx → EReal := fun i => inter x res bias (i 0) (i 1)

/-- The normalized result as an array. -/
def normArr : Sm.Idx → EReal := fun i => norm x res bias w (i 0) (i 1)

end Cert.RmsNorm

end
-- ==== Proof.RefSpec.lean ====
/-
  The reference computes the specification.

  Read one operation at a time, the reference's intermediate at (r, c) is the sum over the leading axis of the partial
  activations (started from zero) plus the bias of column c plus the residual at (r, c); a sum over four terms started
  from zero is the four terms added in order, so this is `inter`. Its normalized result multiplies that by the
  reciprocal square root of (the row's sum of squares, started from zero, divided by 4096, plus the small constant),
  broadcast along the row, and by the weight of column c: `norm`.
-/
import proofs.«160528_j77335181131889_2_alg».proof.Proof.Gen.ReferenceIdeal.Read
import proofs.«160528_j77335181131889_2_alg».proof.Proof.Spec

noncomputable section

open scoped BigOperators

namespace Cert.ReferenceIdeal.RefSpec

open Cert.ReferenceIdeal Cert.ReferenceIdeal.Read Cert.RmsNorm Idealize.ShloMosaic Idealize.ShloMosaic.ValueIdx

variable (x0 : (⟨S4x8192x4096, .f32⟩ : BufTy).Contents (Elt Ideal)) (x1 : (⟨S8192x4096, .f32⟩ : BufTy).Contents (Elt Ideal))
  (x2 x3 : (⟨S4096, .f32⟩ : BufTy).Contents (Elt Ideal))

/-- The index the leading-axis sum reads for term `k` at entry `i` is (k, row of i, column of i). -/
theorem idx_v0 (i : S8192x4096.Idx) (k : Fin 4) : idx_main_v0 i k = (ix3 k (i 0 : Fin 8192) (i 1 : Fin 4096) : Sx.Idx) :=
  funext fun a => Fin.ext (by match a with | ⟨0, _⟩ => rfl | ⟨1, _⟩ => rfl | ⟨2, _⟩ => rfl)

/-- The bias, made a row and repeated down the rows, is read at entry `i` at the column of `i`. -/
theorem idx_v1v2 (i : S8192x4096.Idx) : idx_main_v1 (idx_main_v2 i) = (ix1 (i 1 : Fin 4096) : Sv.Idx) :=
  funext fun a => Fin.ext (by match a with | ⟨0, _⟩ => rfl)

/-- The weight, made a row and repeated down the rows, is read at entry `i` at the column of `i`. -/
theorem idx_v15v16 (i : S8192x4096.Idx) : idx_main_v15 (idx_main_v16 i) = (ix1 (i 1 : Fin 4096) : Sv.Idx) :=
  funext fun a => Fin.ext (by match a with | ⟨0, _⟩ => rfl)

/-- The reference's intermediate, entry by entry, is `inter`. -/
theorem v4_apply (i : S8192x4096.Idx) : val_main_v4 (F := Ideal) x0 x1 x2 i = inter x0 x1 x2 (i 0) (i 1) := by
  rw [val_main_v4_apply, val_main_v3_apply, val_main_v0_apply, val_main_v2_apply, val_main_v1_apply, val_main_cst_apply]
  simp only [Ideal.addf_def, Ideal.ofBits_def, Ideal.ofBits_zero_f32, zero_add, Fin.sum_univ_four, idx_v0, idx_v1v2]
  unfold inter
  exact congrArg (_ + x1 ·) (eq_ix2 (n0 := 8192) (n1 := 4096) i)

theorem v4_eq : val_main_v4 (F := Ideal) x0 x1 x2 = interArr x0 x1 x2 := funext fun i => v4_apply x0 x1 x2 i

/-- The reference's normalized result, entry by entry, is `norm`: the row's factor is computed from the row's sum of
    squares (a sum started from zero), kept as a column and repeated along the row. -/
theorem v17_apply (i : S8192x4096.Idx) : val_main_v17 (F := Ideal) x0 x1 x2 x3 i = norm x0 x1 x2 x3 (i 0) (i 1) := by
  rw [val_main_v17_apply, val_main_v14_apply, val_main_v13_apply, val_main_v12_apply, val_main_v11_apply, val_main_v9_apply,
    val_main_v7_apply, val_main_v6_apply, val_main_v8_apply, val_main_v10_apply, val_main_v16_apply, val_main_v15_apply,
    val_main_cst_0_apply, val_main_cst_1_apply, val_main_cst_2_apply]
  simp only [val_main_v5_apply, v4_apply, Ideal.mulf_def, Ideal.addf_def, Ideal.hostDivf_def, Ideal.hostUnary_rsqrt_def,
    Ideal.ofBits_def, Ideal.ofBits_zero_f32, zero_add, idx_v15v16]
  rfl

theorem v17_eq : val_main_v17 (F := Ideal) x0 x1 x2 x3 = normArr x0 x1 x2 x3 := funext fun i => v17_apply x0 x1 x2 x3 i

end Cert.ReferenceIdeal.RefSpec

end
-- ==== Proof.LibKeepdims.lean ====
/-
  Column vectors kept as two-dimensional arrays, read at an index.

  A row sum taken with `keepdims` leaves a vector of length `a` as an `[a, 1]` array; the kernel then re-lays that
  column (a transpose to `[1, a]`, a broadcast along the rows or along the columns). Each lemma below reads ONE such
  operation at an index written by its coordinates (`ix1`, `ix2`), so that a chain of them walks from an element of the
  broadcast array back to the element of the vector it copies. The rest read a sum along the second axis of a matrix
  as a sum over the column coordinate: the index the reduction inserts at row `p` and column `k` is `(p, k)`
  (`lift_row`), so the vector unit's reduction, whose accumulator word is the sum's neutral element and adds nothing,
  is at row `p` the sum of the row's entries (`rowSum_apply`; `rowSum_zero_f32_apply` for the f32 zero word).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Keepdims

open Idealize.ShloMosaic Idealize.ShloMosaic.ValueIdx

variable {α : Type}

/-- A vector of length `a` cast to a column `[a, 1]` reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the second axis of a matrix inserts: row `p`, column `k`. -/
theorem lift_row {a b : ℕ} (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- At the exact values, the vector unit's sum along the second axis of a matrix, started from the zero word, is at row
    `p` the sum over the columns `k` of the entries `(p, k)`. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The same for the f32 zero word with the accumulator's neutrality stated as the plain equation of words a printed
    body carries (`0 = 0`: the neutral element of an f32 sum IS the zero word, by computation). -/
theorem rowSum_zero_f32_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  rowSum_apply v _ h hφ hacc p

end Cert.Keepdims

end
-- ==== Proof.KernelBlock.lean ====
/-
  One block of the kernel's two results, entry by entry.

  At a grid point the body loads the four partial activations' rows of the block (four slabs of shape [1, 128, 4096]),
  the bias and the weight as rows [1, 4096], and the residual's block [128, 4096]. What it stores for the intermediate
  is, at (r, c), the four slabs' entries at (r, c) added in order, plus the bias at c, plus the residual at (r, c). What
  it stores for the normalized result is that entry times the reciprocal square root of (the block row's sum of squares
  divided by 4096, plus the small constant), times the weight at c; the row's sum of squares runs over all 4096 columns
  of the block row, which is a whole row of the array, so it is the specification's `sumSq` of the array row the block
  row lies on. Both statements are made for arbitrary loaded vectors that agree with the arrays where the block lies.
-/
import proofs.«160528_j77335181131889_2_alg».proof.Proof.Gen.KernelIdeal.Value
import proofs.«160528_j77335181131889_2_alg».proof.Proof.Spec
import proofs.«160528_j77335181131889_2_alg».proof.Proof.LibKeepdims

noncomputable section

open scoped BigOperators

namespace Cert.KernelIdeal.Block

open Cert.KernelIdeal Cert.KernelIdeal.Gen Cert.KernelIdeal.Value Cert.RmsNorm Idealize.ShloMosaic Idealize.ShloMosaic.ValueIdx

/-- An index of a slab [1, 128, 4096] is determined by its row and column. -/
theorem slab_idx (j : S1x128x4096.Idx) (r : Fin 128) (c : Fin 4096) (h0 : (j 0).val = 0) (h1 : (j 1).val = r.val) (h2 : (j 2).val = c.val) :
    j = (ix3 (0 : Fin 1) r c : S1x128x4096.Idx) :=
  funext fun a => Fin.ext (by match a with | ⟨0, _⟩ => exact h0 | ⟨1, _⟩ => exact h1 | ⟨2, _⟩ => exact h2)

/-- An index of a row [1, 4096] is determined by its column. -/
theorem row_idx (j : S1x4096.Idx) (c : Fin 4096) (h0 : (j 0).val = 0) (h1 : (j 1).val = c.val) : j = (ix2 (0 : Fin 1) c : S1x4096.Idx) :=
  funext fun a => Fin.ext (by match a with | ⟨0, _⟩ => exact h0 | ⟨1, _⟩ => exact h1)

/-- An index of a block [128, 4096] is determined by its row and column. -/
theorem blk_idx (j : S128x4096.Idx) (r : Fin 128) (c : Fin 4096) (h0 : (j 0).val = r.val) (h1 : (j 1).val = c.val) : j = (ix2 r c : S128x4096.Idx) :=
  funext fun a => Fin.ext (by match a with | ⟨0, _⟩ => exact h0 | ⟨1, _⟩ => exact h1)

variable (P0 P1 P2 P3 : Vec Ideal S1x128x4096 .f32) (P4 P6 : Vec Ideal S1x4096 .f32) (P5 : Vec Ideal S128x4096 .f32)
  (A : Sx.Idx → EReal) (R : Sm.Idx → EReal) (B W : Sv.Idx → EReal) (ρ : Fin 128 → Fin 8192)

/-- The intermediate's block: when the loaded slabs, bias row and residual block agree with the arrays along the rows
    `ρ r`, the stored entry (r, c) is the specification's intermediate at (ρ r, c). -/
theorem inter_block
    (hP0 : ∀ (r : Fin 128) (c : Fin 4096), P0 (ix3 (0 : Fin 1) r c) = A (ix3 (0 : Fin 4) (ρ r) c))
    (hP1 : ∀ (r : Fin 128) (c : Fin 4096), P1 (ix3 (0 : Fin 1) r c) = A (ix3 (1 : Fin 4) (ρ r) c))
    (hP2 : ∀ (r : Fin 128) (c : Fin 4096), P2 (ix3 (0 : Fin 1) r c) = A (ix3 (2 : Fin 4) (ρ r) c))
    (hP3 : ∀ (r : Fin 128) (c : Fin 4096), P3 (ix3 (0 : Fin 1) r c) = A (ix3 (3 : Fin 4) (ρ r) c))
    (hP4 : ∀ c : Fin 4096, P4 (ix2 (0 : Fin 1) c) = B (ix1 c))
    (hP5 : ∀ (r : Fin 128) (c : Fin 4096), P5 (ix2 r c) = R (ix2 (ρ r) c))
    (r : Fin 128) (c : Fin 4096) :
    E5 P0 P1 P2 P3 P4 P5 (ix2 r c) = inter A R B (ρ r) c := by
  have e0 : ix5_0 (ix2 r c) = ix3 (0 : Fin 1) r c := slab_idx _ r c rfl rfl rfl
  have e1 : ix5_1 (ix2 r c) = ix3 (0 : Fin 1) r c := slab_idx _ r c rfl rfl rfl
  have e2 : ix5_2 (ix2 r c) = ix3 (0 : Fin 1) r c := slab_idx _ r c rfl rfl rfl
  have e3 : ix5_3 (ix2 r c) = ix3 (0 : Fin 1) r c := slab_idx _ r c rfl rfl rfl
  have e4 : ix5_4 (ix2 r c) = ix2 (0 : Fin 1) c := row_idx _ c rfl rfl
  have e5 : ix5_5 (ix2 r c) = ix2 r c := blk_idx _ r c rfl rfl
  show P0 (ix5_0 (ix2 r c)) + P1 (ix5_1 (ix2 r c)) + P2 (ix5_2 (ix2 r c)) + P3 (ix5_3 (ix2 r c)) + P4 (ix5_4 (ix2 r c)) + P5 (ix5_5 (ix2 r c)) = _
  rw [e0, e1, e2, e3, e4, e5, hP0, hP1, hP2, hP3, hP4, hP5]
  rfl

/-- The normalized result's block: under the same agreement (and the weight row's), the stored entry (r, c) is the
    specification's normalized entry at (ρ r, c). The row's factor is computed from the sum over the 4096 columns of the
    squared intermediate entries of block row `r`, each of which is the specification's intermediate on array row `ρ r`. -/
theorem norm_block
    (hP0 : ∀ (r : Fin 128) (c : Fin 4096), P0 (ix3 (0 : Fin 1) r c) = A (ix3 (0 : Fin 4) (ρ r) c))
    (hP1 : ∀ (r : Fin 128) (c : Fin 4096), P1 (ix3 (0 : Fin 1) r c) = A (ix3 (1 : Fin 4) (ρ r) c))
    (hP2 : ∀ (r : Fin 128) (c : Fin 4096), P2 (ix3 (0 : Fin 1) r c) = A (ix3 (2 : Fin 4) (ρ r) c))
    (hP3 : ∀ (r : Fin 128) (c : Fin 4096), P3 (ix3 (0 : Fin 1) r c) = A (ix3 (3 : Fin 4) (ρ r) c))
    (hP4 : ∀ c : Fin 4096, P4 (ix2 (0 : Fin 1) c) = B (ix1 c))
    (hP5 : ∀ (r : Fin 128) (c : Fin 4096), P5 (ix2 r c) = R (ix2 (ρ r) c))
    (hP6 : ∀ c : Fin 4096, P6 (ix2 (0 : Fin 1) c) = W (ix1 c))
    (r : Fin 128) (c : Fin 4096) :
    E4 P0 P1 P2 P3 P4 P5 P6 (ix2 r c) = norm A R B W (ρ r) c := by
  have hI : ∀ k : Fin 4096, k0_pay1 P0 P1 P2 P3 P4 P5 (ix2 r k) = inter A R B (ρ r) k := fun k => by
    rw [piece5_0, show r0_5.idx (ix2 r k : S128x4096.Idx) = ix2 r k from blk_idx _ r k (by show 0 + 1 * r.val = r.val; omega) (by show 0 + 1 * k.val = k.val; omega)]
    exact inter_block P0 P1 P2 P3 P4 P5 A R B ρ hP0 hP1 hP2 hP3 hP4 hP5 r k
  have e0 : ix4_0 (ix2 r c) = ix3 (0 : Fin 1) r c := slab_idx _ r c rfl rfl rfl
  have e1 : ix4_1 (ix2 r c) = ix3 (0 : Fin 1) r c := slab_idx _ r c rfl rfl rfl
  have e2 : ix4_2 (ix2 r c) = ix3 (0 : Fin 1) r c := slab_idx _ r c rfl rfl rfl
  have e3 : ix4_3 (ix2 r c) = ix3 (0 : Fin 1) r c := slab_idx _ r c rfl rfl rfl
  have e4 : ix4_4 (ix2 r c) = ix2 (0 : Fin 1) c := row_idx _ c rfl rfl
  have e5 : ix4_5 (ix2 r c) = ix2 r c := blk_idx _ r c rfl rfl
  have e6 : ix4_6 (ix2 r c) = (ix1 r : S128.Idx) := funext fun a => Fin.ext (by match a with | ⟨0, _⟩ => rfl)
  have e7 : ix4_7 (ix2 r c) = ix2 (0 : Fin 1) c := row_idx _ c rfl rfl
  simp only [E4]
  rw [← lay5_0_eq P0 P1 P2 P3 P4 P5, e0, e1, e2, e3, e4, e5, e6, e7, Cert.Keepdims.rowSum_zero_f32_apply]
  simp only [mulf_apply, hI, hP0, hP1, hP2, hP3, hP4, hP5, hP6, Ideal.mulf_def, Ideal.addf_def, Ideal.divf_def, Ideal.rsqrt_def, Ideal.ofBits_def]
  rfl

end Cert.KernelIdeal.Block

end
-- ==== Proof.KernelArray.lean ====
/-
  From the blocks to the two result arrays.

  The grid has 64 points; at point t every window that moves stands at block row t of its array: the partial
  activations' window at rows 128 t … 128 t + 127 of all four arrays, the residual's and the two results' windows at the
  same rows, while the bias and the weight (each reshaped to one row before the kernel starts) are staged whole. So the
  block a point writes back is the specification's array read through that block, and since the 64 blocks tile the
  8192 rows, each result array ends holding the specification's array.
-/
import proofs.«160528_j77335181131889_2_alg».proof.Proof.Gen.KernelIdeal.Value
import proofs.«160528_j77335181131889_2_alg».proof.Proof.KernelBlock
import Idealize.ShloMosaic.Lib.StableHlo.Run

set_option maxRecDepth 16384

noncomputable section

namespace Cert.KernelIdeal.Arrays

open Cert.KernelIdeal Cert.KernelIdeal.Gen Cert.KernelIdeal.Value Cert.RmsNorm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- Where each window stands at a grid point, decided over the 64 points: the windows over the partial activations, the
    residual and the intermediate stand on the block row the normalized result's window stands on; the bias and weight
    windows do not move; and the block row is one of the 64. -/
theorem idx_facts : ∀ t : Fin cfg0.N,
    win0_0.index t (0 : Fin 3) = 0 ∧ win0_0.index t (1 : Fin 3) = win0_4.index t (0 : Fin 2) ∧ win0_0.index t (2 : Fin 3) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 63
    ∧ win0_5.index t (0 : Fin 2) = win0_4.index t (0 : Fin 2) ∧ win0_5.index t (1 : Fin 2) = 0 :=
  (by decide +kernel : ∀ t : Fin grid0.N, _)

/-- The array row that row `r` of point `t`'s block lies on. -/
def rowOf (t : Fin cfg0.N) (r : Fin 128) : Fin 8192 :=
  ⟨win0_4.index t (0 : Fin 2) * 128 + r.val, by have h := (idx_facts t).2.2.2.2.2.2.2.2.2.2.1; have := r.isLt; omega⟩

/-- The argument arrays as plain functions of their indices. -/
abbrev argX (c : Dev nD) : Sx.Idx → EReal := m ((c : Thread nD τ).loc main_arg0)
abbrev argRes (c : Dev nD) : Sm.Idx → EReal := m ((c : Thread nD τ).loc main_arg1)
abbrev argBias (c : Dev nD) : Sv.Idx → EReal := m ((c : Thread nD τ).loc main_arg2)
abbrev argW (c : Dev nD) : Sv.Idx → EReal := m ((c : Thread nD τ).loc main_arg3)

/-- Slab `k` of the partial activations' block at point `t` holds, at (r, col), array `k` at (rowOf t r, col). -/
theorem slab_read (c : Dev nD) (t : Fin cfg0.N) (k : Fin 4)
    (inb : ∀ a, (![k.val, 0, 0] : Fin 3 → Nat) a + S1x128x4096.size a ≤ S4x128x4096.size a) (r : Fin 128) (col : Fin 4096) :
    View.ld (iblk m c 0 t : Vec Ideal S4x128x4096 .f32) (Rect.unit (s := S4x128x4096) ![k.val, 0, 0] S1x128x4096.size inb) (ix3 (0 : Fin 1) r col)
      = argX m c (ix3 k (rowOf t r) col) := by
  unfold argX
  rw [← V_main_arg0 m c]
  show V m c main_arg0 (((cfg0.win 0).blk t).view.emb ((Rect.unit (s := S4x128x4096) ![k.val, 0, 0] S1x128x4096.size inb).idx (ix3 (0 : Fin 1) r col))) = V m c main_arg0 (ix3 k (rowOf t r) col)
  refine congrArg (V m c main_arg0) (funext fun a => Fin.ext ?_)
  obtain ⟨f0, f1, f2, -⟩ := idx_facts t
  match a with
  | ⟨0, _⟩ => show win0_0.index t (0 : Fin 3) * 4 + 1 * (k.val + 1 * 0) = k.val; omega
  | ⟨1, _⟩ => show win0_0.index t (1 : Fin 3) * 128 + 1 * (0 + 1 * r.val) = win0_4.index t (0 : Fin 2) * 128 + r.val; omega
  | ⟨2, _⟩ => show win0_0.index t (2 : Fin 3) * 4096 + 1 * (0 + 1 * col.val) = col.val; omega

/-- The residual's block at point `t` holds, at (r, col), the residual at (rowOf t r, col). -/
theorem res_read (c : Dev nD) (t : Fin cfg0.N) (r : Fin 128) (col : Fin 4096) :
    View.ld (iblk m c 1 t : Vec Ideal S128x4096 .f32) r0_5 (ix2 r col) = argRes m c (ix2 (rowOf t r) col) := by
  unfold argRes
  rw [← V_main_arg1 m c]
  show V m c main_arg1 (((cfg0.win 1).blk t).view.emb (r0_5.idx (ix2 r col))) = V m c main_arg1 (ix2 (rowOf t r) col)
  refine congrArg (V m c main_arg1) (funext fun a => Fin.ext ?_)
  obtain ⟨-, -, -, f3, f4, -⟩ := idx_facts t
  match a with
  | ⟨0, _⟩ => show win0_1.index t (0 : Fin 2) * 128 + 1 * (0 + 1 * r.val) = win0_4.index t (0 : Fin 2) * 128 + r.val; omega
  | ⟨1, _⟩ => show win0_1.index t (1 : Fin 2) * 4096 + 1 * (0 + 1 * col.val) = col.val; omega

/-- The bias as the kernel finds it: the bias vector laid out as one row before the kernel starts. -/
theorem V_bias (c : Dev nD) : (V m c main_v0 : S1x4096.Idx → EReal) = shapeCast S1x4096 (argBias m c) shapeCasts_S4096_S1x4096 := by
  dsimp only [Gen.V, Gen.hostOps0]; after_results; rfl

/-- The weight as the kernel finds it: the weight vector laid out as one row before the kernel starts. -/
theorem V_weight (c : Dev nD) : (V m c main_v1 : S1x4096.Idx → EReal) = shapeCast S1x4096 (argW m c) shapeCasts_S4096_S1x4096 := by
  dsimp only [Gen.V, Gen.hostOps0]; after_results; rfl

/-- The bias row staged at point `t` holds, at column `col`, the bias at `col`. -/
theorem bias_read (c : Dev nD) (t : Fin cfg0.N) (col : Fin 4096) :
    View.ld (iblk m c 2 t : Vec Ideal S1x4096 .f32) r0_4 (ix2 (0 : Fin 1) col) = argBias m c (ix1 col) := by
  show (V m c main_v0 : S1x4096.Idx → EReal) (((cfg0.win 2).blk t).view.emb (r0_4.idx (ix2 (0 : Fin 1) col))) = _
  rw [V_bias]
  refine shapeCast_apply _ _ _ (ix1 col) ?_
  rw [Shape.rowMajor_val_one, Shape.rowMajor_val_two]
  obtain ⟨-, -, -, -, -, f5, f6, -⟩ := idx_facts t
  show col.val = (win0_2.index t (0 : Fin 2) * 1 + 1 * (0 + 1 * 0)) * 4096 + (win0_2.index t (1 : Fin 2) * 4096 + 1 * (0 + 1 * col.val))
  omega

/-- The weight row staged at point `t` holds, at column `col`, the weight at `col`. -/
theorem weight_read (c : Dev nD) (t : Fin cfg0.N) (col : Fin 4096) :
    View.ld (iblk m c 3 t : Vec Ideal S1x4096 .f32) r0_4 (ix2 (0 : Fin 1) col) = argW m c (ix1 col) := by
  show (V m c main_v1 : S1x4096.Idx → EReal) (((cfg0.win 3).blk t).view.emb (r0_4.idx (ix2 (0 : Fin 1) col))) = _
  rw [V_weight]
  refine shapeCast_apply _ _ _ (ix1 col) ?_
  rw [Shape.rowMajor_val_one, Shape.rowMajor_val_two]
  obtain ⟨-, -, -, -, -, -, -, f7, f8, -⟩ := idx_facts t
  show col.val = (win0_3.index t (0 : Fin 2) * 1 + 1 * (0 + 1 * 0)) * 4096 + (win0_3.index t (1 : Fin 2) * 4096 + 1 * (0 + 1 * col.val))
  omega

/-- WHAT POINT `t` WRITES BACK to the intermediate's array is the specification's intermediate read through the block. -/
theorem flushed_inter (c : Dev nD) (t : Fin cfg0.N) :
    (dats m 0 c).flushed 5 t = ((cfg0.win 5).blk t).view.read (Elt Ideal) (interArr (argX m c) (argRes m c) (argBias m c)) := by
  have key : ∀ y : S128x4096.Idx,
      View.canon ([⟨r0_5, k0_pay1 (View.ld (iblk m c 0 t : Vec Ideal S4x128x4096 .f32) r0_0) (View.ld (iblk m c 0 t : Vec Ideal S4x128x4096 .f32) r0_1)
        (View.ld (iblk m c 0 t : Vec Ideal S4x128x4096 .f32) r0_2) (View.ld (iblk m c 0 t : Vec Ideal S4x128x4096 .f32) r0_3)
        (View.ld (iblk m c 2 t : Vec Ideal S1x4096 .f32) r0_4) (View.ld (iblk m c 1 t : Vec Ideal S128x4096 .f32) r0_5)⟩] : List (View.Piece (Elt Ideal) S128x4096 .f32)) y
      = interArr (argX m c) (argRes m c) (argBias m c) (((cfg0.win 5).blk t).view.emb y) := fun y => by
    obtain ⟨r, col, rfl⟩ : ∃ (r : Fin 128) (col : Fin 4096), y = ix2 r col := ⟨y 0, y 1, eq_ix2 y⟩
    rw [canon5_eq]
    rw [Block.inter_block (View.ld (iblk m c 0 t : Vec Ideal S4x128x4096 .f32) r0_0) (View.ld (iblk m c 0 t : Vec Ideal S4x128x4096 .f32) r0_1)
      (View.ld (iblk m c 0 t : Vec Ideal S4x128x4096 .f32) r0_2) (View.ld (iblk m c 0 t : Vec Ideal S4x128x4096 .f32) r0_3)
      (View.ld (iblk m c 2 t : Vec Ideal S1x4096 .f32) r0_4) (View.ld (iblk m c 1 t : Vec Ideal S128x4096 .f32) r0_5)
      (argX m c) (argRes m c) (argBias m c) (rowOf t)
      (fun r col => slab_read m c t 0 _ r col) (fun r col => slab_read m c t 1 _ r col)
      (fun r col => slab_read m c t 2 _ r col) (fun r col => slab_read m c t 3 _ r col)
      (fun col => bias_read m c t col) (fun r col => res_read m c t r col) r col]
    obtain ⟨-, -, -, -, -, -, -, -, -, -, -, f11, f12⟩ := idx_facts t
    have h0 : (((cfg0.win 5).blk t).view.emb (ix2 r col)) 0 = rowOf t r :=
      Fin.ext (by show win0_5.index t (0 : Fin 2) * 128 + 1 * r.val = win0_4.index t (0 : Fin 2) * 128 + r.val; omega)
    have h1 : (((cfg0.win 5).blk t).view.emb (ix2 r col)) 1 = col :=
      Fin.ext (by show win0_5.index t (1 : Fin 2) * 4096 + 1 * col.val = col.val; omega)
    unfold interArr
    rw [h0, h1]
  rw [flushed5]
  unfold out0_5
  exact funext key

/-- WHAT POINT `t` WRITES BACK to the normalized result's array is the specification's result read through the block. -/
theorem flushed_norm (c : Dev nD) (t : Fin cfg0.N) :
    (dats m 0 c).flushed 4 t = ((cfg0.win 4).blk t).view.read (Elt Ideal) (normArr (argX m c) (argRes m c) (argBias m c) (argW m c)) := by
  have key : ∀ y : S128x4096.Idx,
      View.canon ([⟨r0_5, k0_pay2 (View.ld (iblk m c 0 t : Vec Ideal S4x128x4096 .f32) r0_0) (View.ld (iblk m c 0 t : Vec Ideal S4x128x4096 .f32) r0_1)
        (View.ld (iblk m c 0 t : Vec Ideal S4x128x4096 .f32) r0_2) (View.ld (iblk m c 0 t : Vec Ideal S4x128x4096 .f32) r0_3)
        (View.ld (iblk m c 2 t : Vec Ideal S1x4096 .f32) r0_4) (View.ld (iblk m c 1 t : Vec Ideal S128x4096 .f32) r0_5)
        (View.ld (iblk m c 3 t : Vec Ideal S1x4096 .f32) r0_4)⟩] : List (View.Piece (Elt Ideal) S128x4096 .f32)) y
      = normArr (argX m c) (argRes m c) (argBias m c) (argW m c) (((cfg0.win 4).blk t).view.emb y) := fun y => by
    obtain ⟨r, col, rfl⟩ : ∃ (r : Fin 128) (col : Fin 4096), y = ix2 r col := ⟨y 0, y 1, eq_ix2 y⟩
    rw [canon4_eq]
    rw [Block.norm_block (View.ld (iblk m c 0 t : Vec Ideal S4x128x4096 .f32) r0_0) (View.ld (iblk m c 0 t : Vec Ideal S4x128x4096 .f32) r0_1)
      (View.ld (iblk m c 0 t : Vec Ideal S4x128x4096 .f32) r0_2) (View.ld (iblk m c 0 t : Vec Ideal S4x128x4096 .f32) r0_3)
      (View.ld (iblk m c 2 t : Vec Ideal S1x4096 .f32) r0_4) (View.ld (iblk m c 3 t : Vec Ideal S1x4096 .f32) r0_4)
      (View.ld (iblk m c 1 t : Vec Ideal S128x4096 .f32) r0_5) (argX m c) (argRes m c) (argBias m c) (argW m c) (rowOf t)
      (fun r col => slab_read m c t 0 _ r col) (fun r col => slab_read m c t 1 _ r col)
      (fun r col => slab_read m c t 2 _ r col) (fun r col => slab_read m c t 3 _ r col)
      (fun col => bias_read m c t col) (fun r col => res_read m c t r col) (fun col => weight_read m c t col) r col]
    have h0 : (((cfg0.win 4).blk t).view.emb (ix2 r col)) 0 = rowOf t r :=
      Fin.ext (by show win0_4.index t (0 : Fin 2) * 128 + 1 * r.val = win0_4.index t (0 : Fin 2) * 128 + r.val; omega)
    obtain ⟨-, -, -, -, -, -, -, -, -, f9, -⟩ := idx_facts t
    have h1 : (((cfg0.win 4).blk t).view.emb (ix2 r col)) 1 = col :=
      Fin.ext (by show win0_4.index t (1 : Fin 2) * 4096 + 1 * col.val = col.val; omega)
    unfold normArr
    rw [h0, h1]
  rw [flushed4]
  unfold out0_4
  exact funext key

/-- An index of a result array is in point `t`'s block iff each coordinate is in the block's range on its axis. -/
theorem mem_blk4 (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v2_0).slice (win0_4.rect t)).set ↔ _
  rw [View.set_slice_whole, Rect.mem_set_unit]
  exact Iff.rfl

theorem mem_blk5 (t : Fin cfg0.N) (i : S8192x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v2_1).slice (win0_5.rect t)).set ↔ _
  rw [View.set_slice_whole, Rect.mem_set_unit]
  exact Iff.rfl

/-- Every one of the 64 block rows is some point's, for each result window (decided over the grid). -/
theorem idx_onto4 : ∀ q : Fin 64, ∃ t : Fin cfg0.N, win0_4.index t = ![q.val, 0] :=
  (by decide +kernel : ∀ q : Fin 64, ∃ t : Fin grid0.N, win0_4.index t = ![q.val, 0])

theorem idx_onto5 : ∀ q : Fin 64, ∃ t : Fin cfg0.N, win0_5.index t = ![q.val, 0] :=
  (by decide +kernel : ∀ q : Fin 64, ∃ t : Fin grid0.N, win0_5.index t = ![q.val, 0])

/-- The blocks tile the array: row `i 0` lies in block row `i 0 / 128`, and every block spans all 4096 columns. -/
theorem cover4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto4 ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 4096 ≤ (i 1).val ∧ (i 1).val < win0_4.index t (1 : Fin 2) * 4096 + 4096; omega

theorem cover5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto5 ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 4096 ≤ (i 1).val ∧ (i 1).val < win0_5.index t (1 : Fin 2) * 4096 + 4096; omega

/-- The normalized result's array after the run is the specification's. -/
theorem final_norm (c : Dev nD) : (dats m 0 c).arrAt 4 cfg0.N = normArr (argX m c) (argRes m c) (argBias m c) (argW m c) :=
  (dats m 0 c).arrAt_eq_of_cover 4 _ (fun t _ => flushed_norm m c t) cover4

/-- The intermediate's array after the run is the specification's. -/
theorem final_inter (c : Dev nD) : (dats m 0 c).arrAt 5 cfg0.N = interArr (argX m c) (argRes m c) (argBias m c) :=
  (dats m 0 c).arrAt_eq_of_cover 5 _ (fun t _ => flushed_inter m c t) cover5

/-- The kernel's run, read: every weakly fair execution terminates with the two result arrays at the specification's
    arrays of the arguments, the arguments unchanged. -/
theorem run : θ_run defs (onTc (τ := τ) (main (F := Ideal))) ⟨m, fun _ => 0, ρ⟩ fun r => ∀ c : Dev nD,
      r.2.mem ((c : Thread nD τ).loc main_v2_0) = normArr (argX m c) (argRes m c) (argBias m c) (argW m c)
      ∧ r.2.mem ((c : Thread nD τ).loc main_v2_1) = interArr (argX m c) (argRes m c) (argBias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_norm m c), (h c).2.1.trans (final_inter m c), (h c).2.2⟩)
    (Value.run_blocks m ρ)

end Cert.KernelIdeal.Arrays

end
-- ==== Proof.lean ====
/-
  The kernel adds four partial activations, a bias and a residual into an intermediate array and scales each row of it
  by the reciprocal square root of its mean square (plus a small constant) and by a per-column weight; the reference
  does the same with whole-array operations. At the exact values the two agree entry by entry:

  * the intermediate: the kernel adds the four partial activations in order, the reference sums them over the leading
    axis starting from zero; a four-term sum started from zero is the four terms added in order;
  * the row's sum of squares: the kernel's sum along the columns of a block row starts from the sum's neutral word and
    so is the plain sum; the reference's starts from zero; both run over the 4096 columns of one array row, because a
    block spans whole rows;
  * the divisor 4096 and the added constant are the same float words on both sides, the reciprocal square root is one
    function, and the products are taken in the same order.

  Neither step needs the inputs to be finite: only that adding zero changes nothing. The specification both sides
  meet is Proof/Spec.lean; the reference meets it in Proof/RefSpec.lean; one block of the kernel meets it in
  Proof/KernelBlock.lean, and the 64 blocks tile the arrays in Proof/KernelArray.lean. The three frames are the
  generated ones (the reference's is its run with the results dropped); the ideal pass rewrote nothing, so the
  idealization claim is trivial.
-/
import proofs.«160528_j77335181131889_2_alg».proof.Defs
import proofs.«160528_j77335181131889_2_alg».proof.Proof.Gen.Kernel
import proofs.«160528_j77335181131889_2_alg».proof.Proof.Gen.Kernel.Skeleton
import proofs.«160528_j77335181131889_2_alg».proof.Proof.Gen.Kernel.Launch
import proofs.«160528_j77335181131889_2_alg».proof.Proof.Gen.Kernel.Points
import proofs.«160528_j77335181131889_2_alg».proof.Proof.Gen.Kernel.Frame
import proofs.«160528_j77335181131889_2_alg».proof.Proof.Gen.KernelIdeal
import proofs.«160528_j77335181131889_2_alg».proof.Proof.Gen.KernelIdeal.Skeleton
import proofs.«160528_j77335181131889_2_alg».proof.Proof.Gen.KernelIdeal.Launch
import proofs.«160528_j77335181131889_2_alg».proof.Proof.Gen.KernelIdeal.Points
import proofs.«160528_j77335181131889_2_alg».proof.Proof.Gen.KernelIdeal.Frame
import proofs.«160528_j77335181131889_2_alg».proof.Proof.Gen.ReferenceIdeal
import proofs.«160528_j77335181131889_2_alg».proof.Proof.Gen.Pre_finite_inputs
import proofs.«160528_j77335181131889_2_alg».proof.Proof.Gen.KernelIdeal.Value
import proofs.«160528_j77335181131889_2_alg».proof.Proof.Gen.ReferenceIdeal.Run
import proofs.«160528_j77335181131889_2_alg».proof.Proof.Gen.ReferenceIdeal.Read
import proofs.«160528_j77335181131889_2_alg».proof.Proof.RefSpec
import proofs.«160528_j77335181131889_2_alg».proof.Proof.KernelArray
import Idealize.ShloMosaic.Adequacy
import Idealize.ShloMosaic.Init

noncomputable section

namespace Cert.Proof

open Idealize.ShloMosaic Idealize.SL.Sem Cert.RmsNorm

theorem frame_k : Cert.frame_Kernel := fun m ρ _ => Cert.Kernel.Gen.frame m ρ

theorem frame_ki : Cert.frame_KernelIdeal := fun m ρ _ => Cert.KernelIdeal.Gen.frame m ρ

/-- The reference's run leaves its arguments unchanged: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the normalized array at `normArr` and the intermediate at `interArr` of the same arguments. -/
theorem algebraic : Cert.algebraic_KernelIdeal_ReferenceIdeal := by
  intro m ρ m' ρ' _ hagree
  refine ⟨fun c => normArr (Cert.KernelIdeal.Arrays.argX m c) (Cert.KernelIdeal.Arrays.argRes m c) (Cert.KernelIdeal.Arrays.argBias m c) (Cert.KernelIdeal.Arrays.argW m c),
    fun c => interArr (Cert.KernelIdeal.Arrays.argX m c) (Cert.KernelIdeal.Arrays.argRes m c) (Cert.KernelIdeal.Arrays.argBias m c),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefSpec.v17_eq, (hagree c).1, (hagree c).2.1, (hagree c).2.2.1, (hagree c).2.2.2]
  · rw [Cert.ReferenceIdeal.Read.val_main_v4_eq, Cert.ReferenceIdeal.RefSpec.v4_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
